-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S512x1 : Shape := ⟨2, ![512, 1]⟩
abbrev S1 : Shape := ⟨1, ![1]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S32x2048x512 .f32) (main_arg1 : FVec F S512x1 .f32) (main_arg2 : FVec F S1 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S32x2048x512 : Shape := ⟨3, ![32, 2048, 512]⟩
abbrev S512x1 : Shape := ⟨2, ![512, 1]⟩
abbrev S1 : Shape := ⟨1, ![1]⟩
abbrev S1x1 : Shape := ⟨2, ![1, 1]⟩
abbrev S32x1x512 : Shape := ⟨3, ![32, 1, 512]⟩
abbrev S32x2048x1 : Shape := ⟨3, ![32, 2048, 1]⟩
abbrev S1x2048x512 : Shape := ⟨3, ![1, 2048, 512]⟩
abbrev S1x1x512 : Shape := ⟨3, ![1, 1, 512]⟩
abbrev S1x2048x1 : Shape := ⟨3, ![1, 2048, 1]⟩
abbrev S2048x512 : Shape := ⟨2, ![2048, 512]⟩
abbrev S2048x1 : Shape := ⟨2, ![2048, 1]⟩
abbrev S512 : Shape := ⟨1, ![512]⟩
abbrev S1x512 : Shape := ⟨2, ![1, 512]⟩
abbrev S32x512 : Shape := ⟨2, ![32, 512]⟩

abbrev nBuf : Space → Nat
  | .hbm => 7
  | .vmem => 8
  | .smem => 0
  | _ => 0

abbrev bufTy : (tb : Table) → Fin (tcTables nBuf tb) → BufTy
  | .hbm, ⟨0, _⟩ => ⟨S32x2048x512, .f32⟩
  | .hbm, ⟨1, _⟩ => ⟨S512x1, .f32⟩
  | .hbm, ⟨2, _⟩ => ⟨S1, .f32⟩
  | .hbm, ⟨3, _⟩ => ⟨S1x1, .f32⟩
  | .hbm, ⟨4, _⟩ => ⟨S32x1x512, .f32⟩
  | .hbm, ⟨5, _⟩ => ⟨S32x2048x1, .f32⟩
  | .hbm, ⟨6, _⟩ => ⟨S32x512, .f32⟩
  | .local _ .vmem, ⟨0, _⟩ => ⟨S1x2048x512, .f32⟩
  | .local _ .vmem, ⟨1, _⟩ => ⟨S1x2048x512, .f32⟩
  | .local _ .vmem, ⟨2, _⟩ => ⟨S512x1, .f32⟩
  | .local _ .vmem, ⟨3, _⟩ => ⟨S1x1, .f32⟩
  | .local _ .vmem, ⟨4, _⟩ => ⟨S1x1x512, .f32⟩
  | .local _ .vmem, ⟨5, _⟩ => ⟨S1x1x512, .f32⟩
  | .local _ .vmem, ⟨6, _⟩ => ⟨S1x2048x1, .f32⟩
  | .local _ .vmem, ⟨7, _⟩ => ⟨S1x2048x1, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1_S1x1 : S1.ShapeCasts S1x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  reduces_S2048x1_S1 : S2048x1.Reduces [0] S1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  broadcasts_S2048x1_S2048x512 : S2048x1.Broadcasts S2048x512
  reduces_S2048x512_S512 : S2048x512.Reduces [0] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S32x1x512_S32x512 : S32x1x512.ShapeCasts S32x512
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .f32 = 32 ∨ (Rect.block (s := S32x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S32x2048x1.size a
  hwx0_4 : ∀ i : grid0.Coords, EltTy.bits .f32 = 32 ∨ (Rect.block (s := S32x2048x1) S1x2048x1.size (cc0_transform_4 i) (hinb0_4 i)).WholeWords (EltTy.packing .f32)

variable [Facts₀]

def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S512x1 : Shape := ⟨2, ![512, 1]⟩
abbrev S1 : Shape := ⟨1, ![1]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩
abbrev S32x512 : Shape := ⟨2, ![32, 512]⟩

abbrev nBuf : Space → Nat
  | .hbm => 25
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S512x1, .f32⟩
  | .hbm, ⟨2, _⟩ => ⟨S1, .f32⟩
  | .hbm, ⟨3, _⟩ => ⟨S32x2048x1, .f32⟩
  | .hbm, ⟨4, _⟩ => ⟨S1x1x1, .f32⟩
  | .hbm, ⟨5, _⟩ => ⟨S32x2048x1, .f32⟩
  | .hbm, ⟨6, _⟩ => ⟨S32x2048x1, .f32⟩
  | .hbm, ⟨7, _⟩ => ⟨S_, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1x1, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S_, .f32⟩
  | .hbm, ⟨17, _⟩ => ⟨S32x1, .f32⟩
  | .hbm, ⟨18, _⟩ => ⟨S32x1x1, .f32⟩
  | .hbm, ⟨19, _⟩ => ⟨S32x2048x1, .f32⟩
  | .hbm, ⟨20, _⟩ => ⟨S32x2048x1, .f32⟩
  | .hbm, ⟨21, _⟩ => ⟨S32x2048x512, .f32⟩
  | .hbm, ⟨22, _⟩ => ⟨S32x2048x512, .f32⟩
  | .hbm, ⟨23, _⟩ => ⟨S_, .f32⟩
  | .hbm, ⟨24, _⟩ => ⟨S32x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x512_0_1_2 : S32x2048x1.BroadcastsInDim S32x2048x512 (![0, 1, 2] : Fin 3 → Fin S32x2048x512.rank)
  reducesTo_S32x2048x512_S32x512_d1 : S32x2048x512.ReducesTo [1] S32x512
  dot_S32x2048x512_S512x1_S32x2048x1_2_0_01_1_n_n_wf : DotDims.WF S32x2048x512 S512x1 S32x2048x1 [2] [0] [0, 1] [1] [] []

variable [Facts₀]

def dot_S32x2048x512_S512x1_S32x2048x1_2_0_01_1_n_n : DotDims S32x2048x512 S512x1 S32x2048x1 where
  lhsContracting := [2]
  rhsContracting := [0]
  lhsNonContracting := [0, 1]
  rhsNonContracting := [1]
  lhsBatch := []
  rhsBatch := []
  wf := dot_S32x2048x512_S512x1_S32x2048x1_2_0_01_1_n_n_wf

class Facts : Prop extends Facts₀ where

variable [Facts]
-- ==== Proof.AttnSpec.lean ====
/-
  Attention pooling over a sequence, stated once on the extended reals.

  For one batch element the input is a 2048 × 512 slab X (sequence position t, feature k), a weight column w of
  length 512 and a bias b.  Each position gets a score  s t = (∑ k, X t k · w k) + b.  The scores are turned into
  weights by the softmax over the sequence, written in its shifted form:
      a t = exp (s t − M) / ∑ u, exp (s u − M),     M = max over u of s u, folded from −∞,
  and the features are pooled with these weights:  o h = ∑ t, X t h · a t.

  The whole arrays are these row functions applied slab by slab: the weights `attn` of shape [32, 2048, 1] and the
  pooled features `pooled` of shape [32, 512].  The two programs compared are both shown equal to these two functions,
  index by index.  Nothing here needs an entry to be finite: the only law used to join the two programs is that
  starting a maximum from a value and then taking the maximum with that value again changes nothing
  (`max_fold_max_self`), which holds on any linear order.
-/
import Idealize.ShloMosaic.PureOps.Ideal
import Idealize.ShloMosaic.Lib.ValueIdx
import Mathlib.Data.Finset.Fold

noncomputable section

open scoped BigOperators

namespace Cert.AttnPool

open Idealize.ShloMosaic Idealize.ShloMosaic.ValueIdx

/-! ## One batch element -/

/-- The score of sequence position `t`: the slab's row `t` against the weight column, plus the bias. -/
def score (X : Fin 2048 → Fin 512 → EReal) (w : Fin 512 → EReal) (b : EReal) (t : Fin 2048) : EReal :=
  (∑ k : Fin 512, X t k * w k) + b

/-- The largest score over the sequence, as the fold of `max` from −∞.  The starting value is kept as the word both
    programs spell it with (the f32 pattern of −∞); its value is never needed. -/
def seqMax (s : Fin 2048 → EReal) : EReal :=
  (Finset.univ : Finset (Fin 2048)).fold max (Ideal.ofBits .f32 0xFF800000#32) s

/-- A score shifted by the largest one, exponentiated. -/
def expShift (s : Fin 2048 → EReal) (t : Fin 2048) : EReal := Ideal.exp (s t - seqMax s)

/-- The softmax weight of position `t`: its shifted exponential over the sum of all of them. -/
def weight (s : Fin 2048 → EReal) (t : Fin 2048) : EReal :=
  Ideal.div (expShift s t) (∑ u : Fin 2048, expShift s u)

/-- Feature `h` pooled over the sequence with weights `a`. -/
def pool (X : Fin 2048 → Fin 512 → EReal) (a : Fin 2048 → EReal) (h : Fin 512) : EReal :=
  ∑ t : Fin 2048, X t h * a t

/-- Taking the maximum of a fold's starting value with the fold changes nothing: the fold is already above it. -/
theorem max_fold_max_self {ι : Type} (S : Finset ι) (a : EReal) (f : ι → EReal) :
    max a (S.fold max a f) = S.fold max a f :=
  max_eq_right ((Finset.le_fold_max a).mpr (Or.inl le_rfl))

/-! ## The whole arrays -/

/-- Batch element `p` of the input, as a slab. -/
def slab (x : (⟨3, ![32, 2048, 512]⟩ : Shape).Idx → EReal) (p : Fin 32) : Fin 2048 → Fin 512 → EReal :=
  fun t k => x (ix3 p t k)

/-- The one column of the [512, 1] weight. -/
def column (w : (⟨2, ![512, 1]⟩ : Shape).Idx → EReal) : Fin 512 → EReal := fun k => w (ix2 k (0 : Fin 1))

/-- The one entry of the bias. -/
def bias (b : (⟨1, ![1]⟩ : Shape).Idx → EReal) : EReal := b (ix1 (0 : Fin 1))

/-- The scores of batch element `p`. -/
def scores (x : (⟨3, ![32, 2048, 512]⟩ : Shape).Idx → EReal) (w : (⟨2, ![512, 1]⟩ : Shape).Idx → EReal)
    (b : (⟨1, ![1]⟩ : Shape).Idx → EReal) (p : Fin 32) : Fin 2048 → EReal :=
  score (slab x p) (column w) (bias b)

/-- The attention weights, [32, 2048, 1]: entry (p, t, ·) is the softmax weight of position `t` in batch element `p`. -/
def attn (x : (⟨3, ![32, 2048, 512]⟩ : Shape).Idx → EReal) (w : (⟨2, ![512, 1]⟩ : Shape).Idx → EReal)
    (b : (⟨1, ![1]⟩ : Shape).Idx → EReal) : (⟨3, ![32, 2048, 1]⟩ : Shape).Idx → EReal :=
  fun j => weight (scores x w b (j 0)) (j 1)

/-- The pooled features, [32, 512]: entry (p, h) is feature `h` of batch element `p` pooled with its weights. -/
def pooled (x : (⟨3, ![32, 2048, 512]⟩ : Shape).Idx → EReal) (w : (⟨2, ![512, 1]⟩ : Shape).Idx → EReal)
    (b : (⟨1, ![1]⟩ : Shape).Idx → EReal) : (⟨2, ![32, 512]⟩ : Shape).Idx → EReal :=
  fun j => pool (slab x (j 0)) (weight (scores x w b (j 0))) (j 1)

end Cert.AttnPool

end
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.KernelBlock.lean ====
/-
  What the kernel body computes on one batch element's blocks, read at an index.

  At a grid point the body sees a [1, 2048, 512] block of the input (one batch element's slab behind a leading axis of
  extent one), the whole [512, 1] weight and the [1, 1] bias.  Its matrix product into a zero accumulator is, on the
  extended reals, the plain sum over the shared axis (the narrowing of the operands before the product changes no
  value there), so with the bias added the [2048, 1] column it works on holds the scores of the specification.  The
  column's maximum and the sum of its shifted exponentials are each reduced along the column, reshaped to [1, 1] and
  spread back over the column, so the quotient is the softmax weight; the product of the slab with the weights spread
  over the features, summed down the rows, is the pooled row.  The remaining shape casts add or drop axes of extent one.
-/
import proofs.«101570_j37890201486072_2_alg».proof.Proof.Gen.KernelIdeal.Skeleton
import proofs.«101570_j37890201486072_2_alg».proof.Proof.AttnSpec
import proofs.«101570_j37890201486072_2_alg».proof.Proof.LibColumn
import proofs.«101570_j37890201486072_2_alg».proof.Proof.LibMatmul
import Idealize.ShloMosaic.Lib.ValueLayout
import Idealize.ShloMosaic.PureOps.Ideal.Laws

noncomputable section

open scoped BigOperators

namespace Cert.AttnPool.Block

open Cert.KernelIdeal Cert.KernelIdeal.Gen
open Idealize.ShloMosaic Idealize.ShloMosaic.ValueIdx Cert.AttnPool

/-! ## A [2048, 1] column reduced along itself and spread back -/

/-- Putting row `k` back into the one index of the reduced column gives (k, ·). -/
theorem col_lift (hr : S2048x1.Reduces [0] S1) (u : Fin 1) (k : Fin 2048) : hr.lift (ix1 u) k = ix2 k u :=
  funext fun a => Fin.ext (by match a with | ⟨0, _⟩ => rfl | ⟨1, _⟩ => rfl)

/-- The column's maximum from −∞, reshaped to [1, 1] and spread over the column, read at row `t`: the fold of `max`
    over the column's entries. -/
theorem colMax_apply (s : FVec Ideal S2048x1 .f32) (hr : S2048x1.Reduces [0] S1) (hφ : FKind.Formats .f32)
    (hm : (0xFF800000#32 : BitVec 32) = FKind.maximumf.neutral .f32 hφ) (hc : S1.ShapeCasts S1x1)
    (hb : S1x1.Broadcasts S2048x1) (t : Fin 2048) :
    broadcastTo S2048x1 (shapeCast S1x1 (multiReduction .maximumf [0] S1 s 0xFF800000#32 hr hφ hm) hc) hb (ix2 t (0 : Fin 1))
      = seqMax fun u => s (ix2 u (0 : Fin 1)) := by
  refine (broadcastTo_1b_ab_apply _ hb t (0 : Fin 1)).trans ?_
  refine (shapeCast_a_1a_apply _ hc (0 : Fin 1) (0 : Fin 1)).trans ?_
  refine (Ideal.multiReduction_maximumf_single s 0xFF800000#32 hr hφ hm (ix1 (0 : Fin 1))).trans ?_
  have ef : (s ∘ hr.lift (ix1 (0 : Fin 1))) = fun u : Fin 2048 => s (ix2 u (0 : Fin 1)) :=
    funext fun k => congrArg s (col_lift hr 0 k)
  rw [ef]
  rfl

/-- The column's sum from zero, reshaped to [1, 1] and spread over the column, read at row `t`: the sum of the column's
    entries. -/
theorem colSum_apply (e : FVec Ideal S2048x1 .f32) (hr : S2048x1.Reduces [0] S1) (hφ : FKind.Formats .f32)
    (hz : (0x00000000#32 : BitVec 32) = FKind.add.neutral .f32 hφ) (hc : S1.ShapeCasts S1x1)
    (hb : S1x1.Broadcasts S2048x1) (t : Fin 2048) :
    broadcastTo S2048x1 (shapeCast S1x1 (multiReduction .add [0] S1 e 0x00000000#32 hr hφ hz) hc) hb (ix2 t (0 : Fin 1))
      = ∑ u : Fin 2048, e (ix2 u (0 : Fin 1)) := by
  refine (broadcastTo_1b_ab_apply _ hb t (0 : Fin 1)).trans ?_
  refine (shapeCast_a_1a_apply _ hc (0 : Fin 1) (0 : Fin 1)).trans ?_
  refine (Ideal.multiReduction_add_single e 0x00000000#32 hr hφ hz (ix1 (0 : Fin 1))).trans ?_
  exact Finset.sum_congr rfl fun k _ => congrArg e (col_lift hr 0 k)

/-- The softmax of a column, as the body spells it — subtract the spread maximum, exponentiate, divide by the spread
    sum — read at row `t`: the softmax weight of the column's entries. -/
theorem colSoftmax_apply (s : FVec Ideal S2048x1 .f32) (hr : S2048x1.Reduces [0] S1) (hφ : FKind.Formats .f32)
    (hm : (0xFF800000#32 : BitVec 32) = FKind.maximumf.neutral .f32 hφ)
    (hz : (0x00000000#32 : BitVec 32) = FKind.add.neutral .f32 hφ) (hc : S1.ShapeCasts S1x1)
    (hb : S1x1.Broadcasts S2048x1) (t : Fin 2048) :
    divf (exp (subf s (broadcastTo S2048x1 (shapeCast S1x1 (multiReduction .maximumf [0] S1 s 0xFF800000#32 hr hφ hm) hc) hb)))
        (broadcastTo S2048x1 (shapeCast S1x1 (multiReduction .add [0] S1
          (exp (subf s (broadcastTo S2048x1 (shapeCast S1x1 (multiReduction .maximumf [0] S1 s 0xFF800000#32 hr hφ hm) hc) hb)))
          0x00000000#32 hr hφ hz) hc) hb) (ix2 t (0 : Fin 1))
      = weight (fun u => s (ix2 u (0 : Fin 1))) t := by
  have he : ∀ u : Fin 2048,
      exp (subf s (broadcastTo S2048x1 (shapeCast S1x1 (multiReduction .maximumf [0] S1 s 0xFF800000#32 hr hφ hm) hc) hb)) (ix2 u (0 : Fin 1))
        = expShift (fun u => s (ix2 u (0 : Fin 1))) u := fun u =>
    congrArg (fun m => Ideal.exp (s (ix2 u (0 : Fin 1)) - m)) (colMax_apply s hr hφ hm hc hb u)
  refine (divf_apply _ _ _).trans ?_
  unfold weight
  refine congrArg₂ Ideal.div (he t) ?_
  refine (colSum_apply _ hr hφ hz hc hb t).trans ?_
  exact Finset.sum_congr rfl fun u _ => he u

/-! ## The body's operations on its blocks -/

variable (x0 : Vec Ideal S1x2048x512 .f32) (x1 : Vec Ideal S512x1 .f32) (x2 : Vec Ideal S1x1 .f32)

/-- The block of the input as a slab: the leading axis of extent one dropped. -/
def blockSlab : Fin 2048 → Fin 512 → EReal := fun t k => x0 (ix3 (0 : Fin 1) t k)

/-- The scores of the block's batch element. -/
def blockScores : Fin 2048 → EReal := score (blockSlab x0) (column x1) (x2 (ix2 (0 : Fin 1) (0 : Fin 1)))

/-- The block viewed as a matrix, at (t, k). -/
theorem pay1_apply (t : Fin 2048) (k : Fin 512) : k0_pay1 x0 (ix2 t k) = blockSlab x0 t k :=
  shapeCast_1ab_ab_apply x0 shapeCasts_S1x2048x512_S2048x512 t k

/-- The matrix product into zero plus the spread bias, at row `t`: the score of position `t`. -/
theorem proj_apply (t : Fin 2048) :
    addf (matmul dot_S2048x512_S512x1_S2048x1_1_0_0_1_n_n none (truncf .bf16 (k0_pay1 x0) bitsLt_bf16_f32)
          (truncf .bf16 x1 bitsLt_bf16_f32) (constant S2048x1 .f32 0x00000000#32))
        (broadcastTo S2048x1 (shapeCast S1x1 x2 shapeCasts_S1x1_S1x1) broadcasts_S1x1_S2048x1) (ix2 t (0 : Fin 1))
      = blockScores x0 x1 x2 t := by
  refine (addf_apply _ _ _).trans ?_
  unfold blockScores score
  refine congrArg₂ (· + ·) ?_ ?_
  · refine (Ideal.matmul_constant_zero_apply dot_S2048x512_S512x1_S2048x1_1_0_0_1_n_n none _ _ (ix2 t (0 : Fin 1))).trans ?_
    refine (Cert.Layer.Matmul.plain_contr_sum dot_S2048x512_S512x1_S2048x1_1_0_0_1_n_n rfl rfl rfl rfl rfl rfl _ _
      (ix2 t (0 : Fin 1))).trans ?_
    exact Finset.sum_congr rfl fun k _ => congrArg (· * x1 (ix2 k (0 : Fin 1))) (pay1_apply x0 t k)
  · refine (broadcastTo_1b_ab_apply _ broadcasts_S1x1_S2048x1 t (0 : Fin 1)).trans ?_
    exact congrFun (shapeCast_self x2 shapeCasts_S1x1_S1x1) _

/-- The weights column of the body at row `t`: the softmax weight of position `t`. -/
theorem pay2_apply (t : Fin 2048) : k0_pay2 x0 x1 x2 (ix2 t (0 : Fin 1)) = weight (blockScores x0 x1 x2) t := by
  unfold k0_pay2
  refine (colSoftmax_apply _ reduces_S2048x1_S1 (.inl rfl) rfl rfl shapeCasts_S1_S1x1 broadcasts_S1x1_S2048x1 t).trans ?_
  exact congrArg (fun s => weight s t) (funext fun u => proj_apply x0 x1 x2 u)

/-- What the body stores for the weights, a [1, 2048, 1] block, at (·, t, ·). -/
theorem pay3_apply (u : Fin 1) (t : Fin 2048) (v : Fin 1) :
    k0_pay3 x0 x1 x2 (ix3 u t v) = weight (blockScores x0 x1 x2) t := by
  obtain rfl : v = 0 := Subsingleton.elim _ _
  unfold k0_pay3
  refine (shapeCast_ab_1ab_apply _ shapeCasts_S2048x1_S1x2048x1 u t (0 : Fin 1)).trans ?_
  exact pay2_apply x0 x1 x2 t

/-- A [2048, 512] matrix summed down its rows from zero, then given two leading axes of extent one, at (·, ·, h):
    the sum of column `h`. -/
theorem rowsSum_apply (Y : FVec Ideal S2048x512 .f32) (hr : S2048x512.Reduces [0] S512) (hφ : FKind.Formats .f32)
    (hz : (0x00000000#32 : BitVec 32) = FKind.add.neutral .f32 hφ) (hc : S512.ShapeCasts S1x512)
    (hc' : S1x512.ShapeCasts S1x1x512) (u v : Fin 1) (h : Fin 512) :
    shapeCast S1x1x512 (shapeCast S1x512 (multiReduction .add [0] S512 Y 0x00000000#32 hr hφ hz) hc) hc' (ix3 u v h)
      = ∑ k : Fin 2048, Y (ix2 k h) := by
  refine (shapeCast_ab_1ab_apply _ hc' u v h).trans ?_
  refine (shapeCast_a_1a_apply _ hc v h).trans ?_
  refine (Ideal.multiReduction_add_single Y 0x00000000#32 hr hφ hz (ix1 h)).trans ?_
  exact Finset.sum_congr rfl fun k _ => congrArg Y
    (funext fun a => Fin.ext (by match a with | ⟨0, _⟩ => rfl | ⟨1, _⟩ => rfl))

/-- What the body stores for the pooled features, a [1, 1, 512] block, at (·, ·, h). -/
theorem pay4_apply (u v : Fin 1) (h : Fin 512) :
    k0_pay4 x0 x1 x2 (ix3 u v h) = pool (blockSlab x0) (weight (blockScores x0 x1 x2)) h := by
  unfold k0_pay4
  refine (rowsSum_apply _ reduces_S2048x512_S512 (.inl rfl) rfl shapeCasts_S512_S1x512 shapeCasts_S1x512_S1x1x512 u v h).trans ?_
  unfold pool
  refine Finset.sum_congr rfl fun k _ => ?_
  refine (mulf_apply _ _ _).trans ?_
  refine congrArg₂ (· * ·) (pay1_apply x0 k h) ?_
  refine (Cert.Layer.Column.broadcastTo_a1_ab_apply _ broadcasts_S2048x1_S2048x512 k h).trans ?_
  exact pay2_apply x0 x1 x2 k

end Cert.AttnPool.Block

end
-- ==== Proof.KernelArrays.lean ====
/-
  From what each grid point writes back to the two arrays the region leaves.

  Grid point t works on batch element t: its input block is rows (t, ·, ·) of the input, its weight and bias blocks are
  the whole weight and the whole reshaped bias, and it writes back rows (t, ·, ·) of the weights array and row
  (t, ·, ·) of the pooled array.  So what point t writes back is block t of one whole-array function — the weights
  `attn`, and the pooled features with a middle axis of extent one, `pooledMid` — and since every index lies in the
  block of the point given by its first coordinate, the arrays after the region are these functions.
-/
import proofs.«101570_j37890201486072_2_alg».proof.Proof.Gen.KernelIdeal.Frame
import proofs.«101570_j37890201486072_2_alg».proof.Proof.KernelBlock
import Idealize.ShloMosaic.Lib.Pipeline.Value
import Idealize.ShloMosaic.Lib.StableHlo.Run

noncomputable section

open scoped BigOperators

namespace Cert.AttnPool.Arrays

open Cert.KernelIdeal Cert.KernelIdeal.Gen Idealize.ShloMosaic Idealize.ShloMosaic.TcCoe Idealize.SL.Sem
open Idealize.ShloMosaic.Pipeline (Dat)
open Idealize.ShloMosaic.ValueIdx Cert.AttnPool Cert.AttnPool.Block

variable (m : (ℓ : Loc nD τ sig) → Buf (Elt Ideal) ℓ) (ρ : Dev nD → PrngReg)

/-! ## The index maps, decided over the 32 grid points -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Point t's blocks: the input's, the weights' and the pooled array's at block index (t, 0, 0); the weight's and the
    bias's at (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point as a batch element. -/
def batchOf (t : Fin cfg0.N) : Fin 32 := Fin.cast N_0 t

/-! ## The input blocks at a point -/

/-- The input's block at point t, at (·, s, k): the input at (t, s, k). -/
theorem iblk0_apply (c : Dev nD) (t : Fin cfg0.N) (s : Fin 2048) (k : Fin 512) :
    iblk m c 0 t (ix3 (0 : Fin 1) s k) = V m c main_arg0 (ix3 (batchOf t) s k) := by
  show V m c main_arg0 (((cfg0.win 0).blk t).view.emb (ix3 (0 : Fin 1) s k)) = V m c main_arg0 _
  obtain ⟨e0, e1, e2, -⟩ := idx_facts t
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 512 + 1 * k.val = k.val; omega

/-- The weight's block at any point, at (k, ·): the weight at (k, ·). -/
theorem iblk1_apply (c : Dev nD) (t : Fin cfg0.N) (k : Fin 512) :
    iblk m c 1 t (ix2 k (0 : Fin 1)) = V m c main_arg1 (ix2 k (0 : Fin 1)) := by
  show V m c main_arg1 (((cfg0.win 1).blk t).view.emb (ix2 k (0 : Fin 1))) = V m c main_arg1 _
  obtain ⟨-, -, -, e0, e1, -⟩ := idx_facts t
  refine congrArg (V m c main_arg1) (funext fun a => Fin.ext ?_)
  match a with
  | ⟨0, _⟩ => show win0_1.index t (0 : Fin 2) * 512 + 1 * k.val = k.val; omega
  | ⟨1, _⟩ => show win0_1.index t (1 : Fin 2) * 1 + 1 * 0 = 0; omega

/-- The bias reshaped to [1, 1] before the region holds the bias's one entry. -/
theorem V_main_v0 (c : Dev nD) :
    (V m c main_v0 : S1x1.Idx → EReal) = shapeCast S1x1 (m ((c : Thread nD τ).loc main_arg2)) shapeCasts_S1_S1x1 := by
  show StableHlo.after hostOps0 (fun b => m (c, b)) (Proc.devRef .tc main_v0) = _
  after_results
  rfl

/-- The bias's block at any point holds the bias's one entry. -/
theorem iblk2_apply (c : Dev nD) (t : Fin cfg0.N) :
    iblk m c 2 t (ix2 (0 : Fin 1) (0 : Fin 1)) = bias (m ((c : Thread nD τ).loc main_arg2)) := by
  show V m c main_v0 (((cfg0.win 2).blk t).view.emb (ix2 (0 : Fin 1) (0 : Fin 1))) = _
  obtain ⟨-, -, -, -, -, e0, e1, -⟩ := idx_facts t
  have ei : ((cfg0.win 2).blk t).view.emb (ix2 (0 : Fin 1) (0 : Fin 1)) = ix2 (0 : Fin 1) (0 : Fin 1) :=
    funext fun a => Fin.ext (by
      match a with
      | ⟨0, _⟩ => show win0_2.index t (0 : Fin 2) * 1 + 1 * 0 = 0; omega
      | ⟨1, _⟩ => show win0_2.index t (1 : Fin 2) * 1 + 1 * 0 = 0; omega)
  rw [ei, V_main_v0]
  exact shapeCast_a_1a_apply _ shapeCasts_S1_S1x1 (0 : Fin 1) (0 : Fin 1)

/-- So the scores the body computes at point t are the scores of batch element t. -/
theorem blockScores_eq (c : Dev nD) (t : Fin cfg0.N) :
    blockScores (iblk m c 0 t) (iblk m c 1 t) (iblk m c 2 t)
      = scores (V m c main_arg0) (V m c main_arg1) (m ((c : Thread nD τ).loc main_arg2)) (batchOf t) := by
  funext s
  unfold blockScores scores score
  refine congrArg₂ (· + ·) (Finset.sum_congr rfl fun k _ => ?_) (iblk2_apply m c t)
  exact congrArg₂ (· * ·) (iblk0_apply m c t s k) (iblk1_apply m c t k)

/-- And the slab it pools is batch element t's. -/
theorem blockSlab_eq (c : Dev nD) (t : Fin cfg0.N) : blockSlab (iblk m c 0 t) = slab (V m c main_arg0) (batchOf t) :=
  funext fun s => funext fun k => iblk0_apply m c t s k

/-! ## The weights array (window 4) -/

/-- The weights as the region's arrays give them. -/
def weightsOf (c : Dev nD) : S32x2048x1.Idx → EReal :=
  attn (V m c main_arg0) (V m c main_arg1) (m ((c : Thread nD τ).loc main_arg2))

/-- WHAT POINT t WRITES BACK to the weights array is block t of `attn`. -/
theorem flushed4_eq (c : Dev nD) (t : Fin cfg0.N) :
    (dats m 0 c).flushed 4 t = ((cfg0.win 4).blk t).view.read (Elt Ideal) (weightsOf m c) := by
  show (cfg0.win 4).cut (grid0.coords t) ((dats m 0 c).after 4 t) = _
  rw [after0_4]
  unfold out0_4
  rw [View.canon_unit_zero zeros3]
  simp only [View.ld_unit_zero (S := S1x2048x512) zeros3, View.ld_unit_zero (S := S512x1) zeros2,
    View.ld_unit_zero (S := S1x1) zeros2]
  funext y
  obtain ⟨u, s, v, rfl⟩ : ∃ (u : Fin 1) (s : Fin 2048) (v : Fin 1), y = ix3 u s v := ⟨y 0, y 1, y 2, eq_ix3 y⟩
  show k0_pay3 (iblk m c 0 t) (iblk m c 1 t) (iblk m c 2 t) (ix3 u s v)
    = weightsOf m c (((cfg0.win 4).blk t).view.emb (ix3 u s v))
  refine (pay3_apply _ _ _ u s v).trans ?_
  rw [blockScores_eq]
  obtain ⟨-, -, -, -, -, -, -, -, -, -, e0, e1, e2⟩ := idx_facts t
  unfold weightsOf attn
  have hp : ((cfg0.win 4).blk t).view.emb (ix3 u s v) 0 = batchOf t := Fin.ext (by
    show win0_4.index t (0 : Fin 3) * 1 + 1 * u.val = t.val
    have := u.isLt; omega)
  have hs : ((cfg0.win 4).blk t).view.emb (ix3 u s v) 1 = s := Fin.ext (by
    show win0_4.index t (1 : Fin 3) * 2048 + 1 * s.val = s.val
    omega)
  rw [hp, hs]

/-- An index of the weights array is in point t's block iff each coordinate is in the block's range on its axis. -/
theorem mem_blk4 (t : Fin cfg0.N) (i : S32x2048x1.Idx) :
    i ∈ ((cfg0.win 4).blk t).view.set ↔ ∀ a : Fin 3, win0_4.index t a * S1x2048x1.size a ≤ (i a).val
      ∧ (i a).val < win0_4.index t a * S1x2048x1.size a + S1x2048x1.size a := by
  show i ∈ ((View.whole main_v1_1).slice (win0_4.rect t)).set ↔ _
  rw [View.set_slice_whole, Rect.mem_set_unit]
  exact Iff.rfl

/-- Every index of the weights array is in the block of the point its first coordinate names. -/
theorem cover4 (i : S32x2048x1.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 1 := (i 2).isLt
  refine ⟨Fin.cast N_0.symm ⟨(i 0).val, h0⟩, flush0_4 _, ?_⟩
  rw [mem_blk4]
  obtain ⟨-, -, -, -, -, -, -, -, -, -, e0, e1, e2⟩ := idx_facts (Fin.cast N_0.symm ⟨(i 0).val, h0⟩)
  have e0' : win0_4.index (Fin.cast N_0.symm ⟨(i 0).val, h0⟩) (0 : Fin 3) = (i 0).val := e0
  intro a
  match a with
  | ⟨0, _⟩ =>
    show win0_4.index (Fin.cast N_0.symm ⟨(i 0).val, h0⟩) (0 : Fin 3) * 1 ≤ (i 0).val
      ∧ (i 0).val < win0_4.index (Fin.cast N_0.symm ⟨(i 0).val, h0⟩) (0 : Fin 3) * 1 + 1
    omega
  | ⟨1, _⟩ =>
    show win0_4.index (Fin.cast N_0.symm ⟨(i 0).val, h0⟩) (1 : Fin 3) * 2048 ≤ (i 1).val
      ∧ (i 1).val < win0_4.index (Fin.cast N_0.symm ⟨(i 0).val, h0⟩) (1 : Fin 3) * 2048 + 2048
    omega
  | ⟨2, _⟩ =>
    show win0_4.index (Fin.cast N_0.symm ⟨(i 0).val, h0⟩) (2 : Fin 3) * 1 ≤ (i 2).val
      ∧ (i 2).val < win0_4.index (Fin.cast N_0.symm ⟨(i 0).val, h0⟩) (2 : Fin 3) * 1 + 1
    omega

/-- THE WEIGHTS ARRAY after the region is `attn` of the arrays the region found. -/
theorem final4 (c : Dev nD) : (dats m 0 c).arrAt 4 cfg0.N = weightsOf m c :=
  (dats m 0 c).arrAt_eq_of_cover 4 (weightsOf m c) (fun t _ => flushed4_eq m c t) cover4

/-! ## The pooled array (window 3) -/

/-- The pooled features with the middle axis of extent one the region's array carries. -/
def pooledMid (c : Dev nD) : S32x1x512.Idx → EReal := fun i =>
  pooled (V m c main_arg0) (V m c main_arg1) (m ((c : Thread nD τ).loc main_arg2)) (ix2 (i 0) (i 2))

/-- WHAT POINT t WRITES BACK to the pooled array is block t of `pooledMid`. -/
theorem flushed3_eq (c : Dev nD) (t : Fin cfg0.N) :
    (dats m 0 c).flushed 3 t = ((cfg0.win 3).blk t).view.read (Elt Ideal) (pooledMid m c) := by
  show (cfg0.win 3).cut (grid0.coords t) ((dats m 0 c).after 3 t) = _
  rw [after0_3]
  unfold out0_3
  rw [View.canon_unit_zero zeros3]
  simp only [View.ld_unit_zero (S := S1x2048x512) zeros3, View.ld_unit_zero (S := S512x1) zeros2,
    View.ld_unit_zero (S := S1x1) zeros2]
  funext y
  obtain ⟨u, v, h, rfl⟩ : ∃ (u : Fin 1) (v : Fin 1) (h : Fin 512), y = ix3 u v h := ⟨y 0, y 1, y 2, eq_ix3 y⟩
  show k0_pay4 (iblk m c 0 t) (iblk m c 1 t) (iblk m c 2 t) (ix3 u v h)
    = pooledMid m c (((cfg0.win 3).blk t).view.emb (ix3 u v h))
  refine (pay4_apply _ _ _ u v h).trans ?_
  rw [blockScores_eq, blockSlab_eq]
  obtain ⟨-, -, -, -, -, -, -, e0, e1, e2, -⟩ := idx_facts t
  unfold pooledMid pooled
  have hp : ((cfg0.win 3).blk t).view.emb (ix3 u v h) 0 = batchOf t := Fin.ext (by
    show win0_3.index t (0 : Fin 3) * 1 + 1 * u.val = t.val
    have := u.isLt; omega)
  have hh : ((cfg0.win 3).blk t).view.emb (ix3 u v h) 2 = h := Fin.ext (by
    show win0_3.index t (2 : Fin 3) * 512 + 1 * h.val = h.val
    omega)
  rw [hp, hh]

/-- An index of the pooled array is in point t's block iff each coordinate is in the block's range on its axis. -/
theorem mem_blk3 (t : Fin cfg0.N) (i : S32x1x512.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v1_0).slice (win0_3.rect t)).set ↔ _
  rw [View.set_slice_whole, Rect.mem_set_unit]
  exact Iff.rfl

/-- Every index of the pooled array is in the block of the point its first coordinate names. -/
theorem cover3 (i : S32x1x512.Idx) :
    ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 512 := (i 2).isLt
  refine ⟨Fin.cast N_0.symm ⟨(i 0).val, h0⟩, flush0_3 _, ?_⟩
  rw [mem_blk3]
  obtain ⟨-, -, -, -, -, -, -, e0, e1, e2, -⟩ := idx_facts (Fin.cast N_0.symm ⟨(i 0).val, h0⟩)
  have e0' : win0_3.index (Fin.cast N_0.symm ⟨(i 0).val, h0⟩) (0 : Fin 3) = (i 0).val := e0
  intro a
  match a with
  | ⟨0, _⟩ =>
    show win0_3.index (Fin.cast N_0.symm ⟨(i 0).val, h0⟩) (0 : Fin 3) * 1 ≤ (i 0).val
      ∧ (i 0).val < win0_3.index (Fin.cast N_0.symm ⟨(i 0).val, h0⟩) (0 : Fin 3) * 1 + 1
    omega
  | ⟨1, _⟩ =>
    show win0_3.index (Fin.cast N_0.symm ⟨(i 0).val, h0⟩) (1 : Fin 3) * 1 ≤ (i 1).val
      ∧ (i 1).val < win0_3.index (Fin.cast N_0.symm ⟨(i 0).val, h0⟩) (1 : Fin 3) * 1 + 1
    omega
  | ⟨2, _⟩ =>
    show win0_3.index (Fin.cast N_0.symm ⟨(i 0).val, h0⟩) (2 : Fin 3) * 512 ≤ (i 2).val
      ∧ (i 2).val < win0_3.index (Fin.cast N_0.symm ⟨(i 0).val, h0⟩) (2 : Fin 3) * 512 + 512
    omega

/-- THE POOLED ARRAY after the region is `pooledMid` of the arrays the region found. -/
theorem final3 (c : Dev nD) : (dats m 0 c).arrAt 3 cfg0.N = pooledMid m c :=
  (dats m 0 c).arrAt_eq_of_cover 3 (pooledMid m c) (fun t _ => flushed3_eq m c t) cover3

end Cert.AttnPool.Arrays

end
-- ==== Proof.LibMidUnit.lean ====
/-
  A middle axis of extent one, dropped: an [a, 1, b] array viewed as the [a, b] matrix reads (i, 0, j) at (i, j).
  For any a, b and any element type.  (Both indices have the same row-major position, (i · 1 + 0) · b + j = i · b + j.)
-/
import Idealize.ShloMosaic.Lib.ValueIdx
import Idealize.ShloMosaic.Lib.Pipeline.Value

namespace Cert.Layer.MidUnit

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Layer.MidUnit
-- ==== Proof.KernelRun.lean ====
/-
  The kernel program's run, read: both results as functions of the argument arrays.

  The region leaves the weights array at `attn` and the pooled array, which carries a middle axis of extent one, at
  `pooledMid`.  The weights array is the program's second result as it is.  The first result is the pooled array
  reshaped by the one host operation after the region, which drops the middle axis: at (p, h) it reads the pooled array
  at (p, 0, h), that is `pooled` at (p, h).  No host operation writes an argument array, and the region finds the input
  and the weight as they were launched.
-/
import proofs.«101570_j37890201486072_2_alg».proof.Proof.KernelArrays
import proofs.«101570_j37890201486072_2_alg».proof.Proof.LibMidUnit

noncomputable section

namespace Cert.AttnPool.Run

open Cert.KernelIdeal Cert.KernelIdeal.Gen Idealize.ShloMosaic Idealize.ShloMosaic.TcCoe Idealize.SL.Sem
open Idealize.ShloMosaic.Pipeline (Dat)
open Idealize.ShloMosaic.ValueIdx Cert.AttnPool Cert.AttnPool.Arrays

variable (m : (ℓ : Loc nD τ sig) → Buf (Elt Ideal) ℓ) (ρ : Dev nD → PrngReg)

/-- The pooled array with its middle axis dropped is the pooled features. -/
theorem dropMid_pooledMid (c : Dev nD) :
    shapeCast S32x512 (pooledMid m c) shapeCasts_S32x1x512_S32x512
      = pooled (V m c main_arg0) (V m c main_arg1) (m ((c : Thread nD τ).loc main_arg2)) := by
  funext j
  obtain ⟨p, h, rfl⟩ : ∃ (p : Fin 32) (h : Fin 512), j = ix2 p h := ⟨j 0, j 1, eq_ix2 j⟩
  exact Cert.Layer.MidUnit.shapeCast_a1b_ab_apply (pooledMid m c) shapeCasts_S32x1x512_S32x512 p h

/-- The first result after the host operation that follows the region. -/
theorem tail_main_v2 (c : Dev nD) :
    Pipeline.afterTail₀ cfgs (dats m) 0 (V0 m) [hostOps1] c main_v2
      = pooled (V m c main_arg0) (V m c main_arg1) (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1_0) = pooledMid m c :=
    (Pipeline.withArrays_arr spec0 launch0.win.arr_inj c _ _ 3).trans (final3 m c)
  exact (congrArg (fun A => shapeCast S32x512 A shapeCasts_S32x1x512_S32x512) hw).trans (dropMid_pooledMid m c)

/-- The first result, over the argument arrays as launched. -/
theorem result_pooled (c : Dev nD) :
    Pipeline.afterTail₀ cfgs (dats m) 0 (V0 m) [hostOps1] c main_v2
      = pooled (m ((c : Thread nD τ).loc main_arg0)) (m ((c : Thread nD τ).loc main_arg1)) (m ((c : Thread nD τ).loc main_arg2)) := by
  rw [tail_main_v2, V_main_arg0 m c, V_main_arg1 m c]

/-- The second result, over the argument arrays as launched. -/
theorem result_weights (c : Dev nD) :
    (dats m 0 c).arrAt 4 cfg0.N
      = attn (m ((c : Thread nD τ).loc main_arg0)) (m ((c : Thread nD τ).loc main_arg1)) (m ((c : Thread nD τ).loc main_arg2)) := by
  rw [final4]
  unfold weightsOf
  rw [V_main_arg0 m c, V_main_arg1 m c]

/-- THE RUN, READ: every weakly fair execution terminates with the first result at `pooled` and the second at `attn` of
    the argument arrays, which end unchanged. -/
theorem run : θ_run defs (onTc (τ := τ) (main (F := Ideal))) ⟨m, fun _ => 0, ρ⟩ fun r => ∀ c : Dev nD,
      r.2.mem ((c.tc : Thread nD τ).loc main_v2)
        = pooled (m ((c.tc : Thread nD τ).loc main_arg0)) (m ((c.tc : Thread nD τ).loc main_arg1)) (m ((c.tc : Thread nD τ).loc main_arg2))
      ∧ r.2.mem ((c.tc : Thread nD τ).loc main_v1_1)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (result_pooled m c),
      ((h c).1 4).trans (result_weights m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.AttnPool.Run

end
-- ==== Proof.RefIsSpec.lean ====
/-
  The reference program computes the attention weights and the pooled features of the specification.

  Read stage by stage at an index with coordinates (p, t, ·) or (p, h): the reference's `dot_general` plus the
  broadcast bias is the score; its maximum over the sequence axis, taken once more with −∞ (jax's softmax starts its
  maximum from −∞ and the lowering keeps both), is the fold `seqMax`; the exponential of the difference, the sum over
  the sequence axis started from zero, and the quotient give `weight`; the product with the input summed over the
  sequence axis gives `pool`.  The broadcasts only move indices.
-/
import proofs.«101570_j37890201486072_2_alg».proof.Proof.Gen.ReferenceIdeal.Read
import proofs.«101570_j37890201486072_2_alg».proof.Proof.AttnSpec
import Idealize.ShloMosaic.PureOps.Reduce

noncomputable section

open scoped BigOperators

namespace Cert.AttnPool.Ref

open Cert.ReferenceIdeal Cert.ReferenceIdeal.Gen Cert.ReferenceIdeal.Read
open Idealize.ShloMosaic Idealize.ShloMosaic.ValueIdx Cert.AttnPool

variable (x0 : (⟨S32x2048x512, .f32⟩ : BufTy).Contents (Elt Ideal)) (x1 : (⟨S512x1, .f32⟩ : BufTy).Contents (Elt Ideal))
  (x2 : (⟨S1, .f32⟩ : BufTy).Contents (Elt Ideal))

/-- The only position on an axis of extent one. -/
theorem fin1_eq_zero (u : Fin 1) : u = 0 := Subsingleton.elim _ _

/-- The projection plus the bias, at (p, t, ·), is the score of position `t` in batch element `p`. -/
theorem v3_apply (p : Fin 32) (t : Fin 2048) (u : Fin 1) :
    val_main_v3 (F := Ideal) x0 x1 x2 (ix3 p t u) = scores x0 x1 x2 p t := by
  obtain rfl := fin1_eq_zero u
  rw [val_main_v3_apply, val_main_v0_apply, val_main_v2_apply, val_main_v1_apply]
  have el : ∀ k : Fin 512, lidx_main_v0 (ix3 p t (0 : Fin 1)) k = ix3 p t k := fun k =>
    funext fun a => Fin.ext (by match a with | ⟨0, _⟩ => rfl | ⟨1, _⟩ => rfl | ⟨2, _⟩ => rfl)
  have er : ∀ k : Fin 512, ridx_main_v0 (ix3 p t (0 : Fin 1)) k = ix2 k (0 : Fin 1) := fun k =>
    funext fun a => Fin.ext (by match a with | ⟨0, _⟩ => rfl | ⟨1, _⟩ => rfl)
  have eb : idx_main_v1 (idx_main_v2 (ix3 p t (0 : Fin 1))) = ix1 (0 : Fin 1) :=
    funext fun a => Fin.ext (by match a with | ⟨0, _⟩ => rfl)
  simp only [el, er, eb]
  rfl

/-- The sequence axis can be dropped from a [32, 2048, 1] array. -/
theorem dropSeq : S32x2048x1.Reduces [1] S32x1 := by decide

/-- Putting sequence position `k` back into the index (p, ·) gives (p, k, ·). -/
theorem dropSeq_lift (p : Fin 32) (k : Fin 2048) : dropSeq.lift (ix2 p (0 : Fin 1)) k = ix3 p k (0 : Fin 1) :=
  funext fun a => Fin.ext (by match a with | ⟨0, _⟩ => rfl | ⟨1, _⟩ => rfl | ⟨2, _⟩ => rfl)

/-- The reference's maximum over the sequence axis of any [32, 2048, 1] array `y`, at (p, ·): the fold of `max` from −∞
    over `y (p, k, ·)`. -/
theorem seqReduce_apply (y : S32x2048x1.Idx → EReal) (p : Fin 32) :
    Host.reduce (FloatOps.maximumf (F := Ideal) (φ := .f32)) y (val_main_cst (F := Ideal)) reducesTo_S32x2048x1_S32x1_d1 h_S_
        (ix2 p (0 : Fin 1))
      = seqMax fun k => y (ix3 p k (0 : Fin 1)) := by
  refine (Host.reduce_eq_fold_single (α := EReal) (FloatOps.maximumf (F := Ideal) (φ := .f32)) y
      (val_main_cst (F := Ideal)) reducesTo_S32x2048x1_S32x1_d1 dropSeq h_S_ (ix2 p (0 : Fin 1))).trans ?_
  have ef : (y ∘ dropSeq.lift (ix2 p (0 : Fin 1))) = fun k : Fin 2048 => y (ix3 p k (0 : Fin 1)) :=
    funext fun k => congrArg y (dropSeq_lift p k)
  rw [ef]
  rfl

/-- The maximum over the sequence axis, taken once more with −∞, at (p, ·), is the largest score of batch element `p`. -/
theorem v6_apply (p : Fin 32) (u : Fin 1) :
    val_main_v6 (F := Ideal) x0 x1 x2 (ix2 p u) = seqMax (scores x0 x1 x2 p) := by
  obtain rfl := fin1_eq_zero u
  rw [val_main_v6_apply, val_main_v5_apply, val_main_cst_0_apply]
  have h4 : val_main_v4 (F := Ideal) x0 x1 x2 (ix2 p (0 : Fin 1)) = seqMax (scores x0 x1 x2 p) := by
    unfold val_main_v4
    refine (seqReduce_apply _ p).trans ?_
    exact congrArg seqMax (funext fun k => v3_apply x0 x1 x2 p k (0 : Fin 1))
  rw [h4]
  show max (Ideal.ofBits .f32 0xFF800000#32) (seqMax (scores x0 x1 x2 p)) = seqMax (scores x0 x1 x2 p)
  unfold seqMax
  exact max_fold_max_self Finset.univ (Ideal.ofBits .f32 0xFF800000#32) (scores x0 x1 x2 p)

/-- The shifted exponential at (p, t, ·). -/
theorem v10_apply (p : Fin 32) (t : Fin 2048) (u : Fin 1) :
    val_main_v10 (F := Ideal) x0 x1 x2 (ix3 p t u) = expShift (scores x0 x1 x2 p) t := by
  rw [val_main_v10_apply, val_main_v9_apply, val_main_v8_apply, val_main_v7_apply, v3_apply]
  have e : idx_main_v7 (idx_main_v8 (ix3 p t u)) = ix2 p (0 : Fin 1) :=
    funext fun a => Fin.ext (by match a with | ⟨0, _⟩ => rfl | ⟨1, _⟩ => rfl)
  rw [e, v6_apply]
  rfl

/-- The sum of the shifted exponentials over the sequence axis at (p, ·): the sum starts from the zero word. -/
theorem v11_apply (p : Fin 32) (u : Fin 1) :
    val_main_v11 (F := Ideal) x0 x1 x2 (ix2 p u) = ∑ t : Fin 2048, expShift (scores x0 x1 x2 p) t := by
  obtain rfl := fin1_eq_zero u
  rw [Read.val_main_v11_apply, val_main_cst_1_apply]
  refine Eq.trans (congrArg₂ (· + ·) Ideal.ofBits_zero_f32 (Finset.sum_congr rfl fun k _ => ?_)) (zero_add _)
  have e : idx_main_v11 (ix2 p (0 : Fin 1)) k = ix3 p k (0 : Fin 1) :=
    funext fun a => Fin.ext (by match a with | ⟨0, _⟩ => rfl | ⟨1, _⟩ => rfl | ⟨2, _⟩ => rfl)
  rw [e, v10_apply]

/-- The quotient at (p, t, ·) is the softmax weight of position `t`. -/
theorem v14_apply (p : Fin 32) (t : Fin 2048) (u : Fin 1) :
    val_main_v14 (F := Ideal) x0 x1 x2 (ix3 p t u) = weight (scores x0 x1 x2 p) t := by
  rw [val_main_v14_apply, val_main_v13_apply, val_main_v12_apply, v10_apply]
  have e : idx_main_v12 (idx_main_v13 (ix3 p t u)) = ix2 p (0 : Fin 1) :=
    funext fun a => Fin.ext (by match a with | ⟨0, _⟩ => rfl | ⟨1, _⟩ => rfl)
  rw [e, v11_apply]
  rfl

/-- THE WEIGHTS: the reference's second result is `attn`. -/
theorem weights_eq : val_main_v14 (F := Ideal) x0 x1 x2 = attn x0 x1 x2 := by
  funext j
  obtain ⟨p, t, u, rfl⟩ : ∃ (p : Fin 32) (t : Fin 2048) (u : Fin 1), j = ix3 p t u := ⟨j 0, j 1, j 2, eq_ix3 j⟩
  exact v14_apply x0 x1 x2 p t u

/-- THE POOLED FEATURES: the reference's first result is `pooled`. -/
theorem pooled_eq : val_main_v17 (F := Ideal) x0 x1 x2 = pooled x0 x1 x2 := by
  funext j
  obtain ⟨p, h, rfl⟩ : ∃ (p : Fin 32) (h : Fin 512), j = ix2 p h := ⟨j 0, j 1, eq_ix2 j⟩
  rw [Read.val_main_v17_apply, val_main_cst_2_apply]
  show _ = ∑ k : Fin 2048, x0 (ix3 p k h) * weight (scores x0 x1 x2 p) k
  refine Eq.trans (congrArg₂ (· + ·) Ideal.ofBits_zero_f32 (Finset.sum_congr rfl fun k _ => ?_)) (zero_add _)
  have e : idx_main_v17 (ix2 p h) k = ix3 p k h :=
    funext fun a => Fin.ext (by match a with | ⟨0, _⟩ => rfl | ⟨1, _⟩ => rfl | ⟨2, _⟩ => rfl)
  have e' : idx_main_v15 (ix3 p k h) = ix3 p k (0 : Fin 1) :=
    funext fun a => Fin.ext (by match a with | ⟨0, _⟩ => rfl | ⟨1, _⟩ => rfl | ⟨2, _⟩ => rfl)
  rw [e, val_main_v16_apply, val_main_v15_apply, e', v14_apply]
  rfl

end Cert.AttnPool.Ref

end
-- ==== Proof.lean ====
/-
  Attention pooling over a sequence: a kernel that handles one batch element per grid point against the plain
  array program.

  Both programs compute, for each of the 32 batch elements, the scores  s t = (∑ k, x t k · w k) + b  of its 2048
  sequence positions, the softmax weights  a t = exp (s t − M) / ∑ u, exp (s u − M)  with M the largest score, and the
  pooled features  o h = ∑ t, x t h · a t;  the results are the pooled features [32, 512] and the weights
  [32, 2048, 1].  On the extended reals the two programs are the same function of the arguments:

  • the kernel's matrix product of narrowed operands into a zero accumulator and the reference's contraction are the
    same sum over the shared axis, the narrowing changing no value;
  • both maxima are folds of `max` from −∞ over the sequence; the reference takes the maximum with −∞ once more, which
    changes nothing since the fold is already above its starting value;
  • both sums start from zero; exponential, subtraction, quotient and product are the same operations on both sides,
    applied in the same order;
  • the kernel's blocks tile the arrays batch element by batch element, and the reshape after the region only drops an
    axis of extent one.

  No step uses that the inputs are finite: nothing is distributed, cancelled or moved across a sum.  The kernel's run
  is read in Proof/KernelRun.lean (over Proof/KernelArrays.lean and Proof/KernelBlock.lean), the reference's stages in
  Proof/RefIsSpec.lean, and both are stated against the functions of Proof/AttnSpec.lean.  The kernel read on the
  extended reals is the kernel's own text, no operation rewritten, so the idealization conjunct is `True`.
-/
import proofs.«101570_j37890201486072_2_alg».proof.Defs
import proofs.«101570_j37890201486072_2_alg».proof.Proof.Gen.Kernel
import proofs.«101570_j37890201486072_2_alg».proof.Proof.Gen.Kernel.Skeleton
import proofs.«101570_j37890201486072_2_alg».proof.Proof.Gen.Kernel.Launch
import proofs.«101570_j37890201486072_2_alg».proof.Proof.Gen.Kernel.Points
import proofs.«101570_j37890201486072_2_alg».proof.Proof.Gen.Kernel.Frame
import proofs.«101570_j37890201486072_2_alg».proof.Proof.Gen.KernelIdeal
import proofs.«101570_j37890201486072_2_alg».proof.Proof.Gen.KernelIdeal.Skeleton
import proofs.«101570_j37890201486072_2_alg».proof.Proof.Gen.KernelIdeal.Launch
import proofs.«101570_j37890201486072_2_alg».proof.Proof.Gen.KernelIdeal.Points
import proofs.«101570_j37890201486072_2_alg».proof.Proof.Gen.KernelIdeal.Frame
import proofs.«101570_j37890201486072_2_alg».proof.Proof.Gen.ReferenceIdeal
import proofs.«101570_j37890201486072_2_alg».proof.Proof.Gen.ReferenceIdeal.Run
import proofs.«101570_j37890201486072_2_alg».proof.Proof.Gen.ReferenceIdeal.Read
import proofs.«101570_j37890201486072_2_alg».proof.Proof.Gen.Pre_finite_inputs
import proofs.«101570_j37890201486072_2_alg».proof.Proof.KernelRun
import proofs.«101570_j37890201486072_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From memories that agree on the arguments both programs end with the pooled features `pooled` and the weights
    `attn` of those arguments. -/
theorem algebraic : Cert.algebraic_KernelIdeal_ReferenceIdeal := by
  intro m ρ m' ρ' _ hagree
  refine ⟨fun c => Cert.AttnPool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.AttnPool.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.AttnPool.Run.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    refine (Cert.ReferenceIdeal.Read.val_main_v17_eq _ _ _).trans ?_
    rw [Cert.AttnPool.Ref.pooled_eq, (hagree c).1, (hagree c).2.1, (hagree c).2.2]
  · refine (h c).2.1.trans ?_
    refine (Cert.ReferenceIdeal.Read.val_main_v14_eq _ _ _).trans ?_
    rw [Cert.AttnPool.Ref.weights_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
